-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x512 : Shape := ⟨2, ![512, 512]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  main_v18

def fn {F : FTy → Type} [FloatOps F] (main_arg0 : FVec F S100000x512 .f32) (main_arg1 : FVec F S100000x512 .f32) (main_arg2 : FVec F S512x512 .f32) (main_arg3 : FVec F S512x512 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S100000x512 .f32 := Host.absf main_arg1
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_v13 main_v16
-- ==== Kernel.lean ====
abbrev S100000x512 : Shape := ⟨2, ![100000, 512]⟩
abbrev S512x512 : Shape := ⟨2, ![512, 512]⟩
abbrev S1000x512 : Shape := ⟨2, ![1000, 512]⟩
abbrev S1x100000x512 : Shape := ⟨3, ![1, 100000, 512]⟩
abbrev S2x100000x512 : Shape := ⟨3, ![2, 100000, 512]⟩

abbrev nBuf : Space → Nat
  | .hbm => 9
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S100000x512, .f32⟩
  | .hbm, ⟨2, _⟩ => ⟨S512x512, .f32⟩
  | .hbm, ⟨3, _⟩ => ⟨S512x512, .f32⟩
  | .hbm, ⟨4, _⟩ => ⟨S100000x512, .f32⟩
  | .hbm, ⟨5, _⟩ => ⟨S100000x512, .f32⟩
  | .hbm, ⟨6, _⟩ => ⟨S1x100000x512, .f32⟩
  | .hbm, ⟨7, _⟩ => ⟨S1x100000x512, .f32⟩
  | .hbm, ⟨8, _⟩ => ⟨S2x100000x512, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S512x512, .f32⟩
  | .local _ .vmem, ⟨5, _⟩ => ⟨S512x512, .f32⟩
  | .local _ .vmem, ⟨6, _⟩ => ⟨S1000x512, .f32⟩
  | .local _ .vmem, ⟨7, _⟩ => ⟨S1000x512, .f32⟩
  | .local _ .vmem, ⟨8, _⟩ => ⟨S1000x512, .f32⟩
  | .local _ .vmem, ⟨9, _⟩ => ⟨S1000x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  bcast_S100000x512_S1x100000x512_1_2 : S100000x512.BroadcastsInDim S1x100000x512 (![1, 2] : Fin 2 → Fin S1x100000x512.rank)
  concatenates_S1x100000x512_S1x100000x512_S2x100000x512_d0 : Shape.Concatenates [S1x100000x512, S1x100000x512] S2x100000x512 0
  dot_S1000x512_S512x512_S1000x512_1_1_0_0_n_n_wf : DotDims.WF S1000x512 S512x512 S1000x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S100000x512.size a
  hwx0_0 : ∀ i : grid0.Coords, EltTy.bits .f32 = 32 ∨ (Rect.block (s := S100000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S100000x512.size a
  hwx0_1 : ∀ i : grid0.Coords, EltTy.bits .f32 = 32 ∨ (Rect.block (s := S100000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x512.size a ≤ S100000x512.size a
  hwx0_4 : ∀ i : grid0.Coords, EltTy.bits .f32 = 32 ∨ (Rect.block (s := S100000x512) S1000x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x512.size a ≤ S100000x512.size a
  hwx0_5 : ∀ i : grid0.Coords, EltTy.bits .f32 = 32 ∨ (Rect.block (s := S100000x512) S1000x512.size (cc0_transform_5 i) (hinb0_5 i)).WholeWords (EltTy.packing .f32)

variable [Facts₀]

def dot_S1000x512_S512x512_S1000x512_1_1_0_0_n_n : DotDims S1000x512 S512x512 S1000x512 where
  lhsContracting := [1]
  rhsContracting := [1]
  lhsNonContracting := [0]
  rhsNonContracting := [0]
  lhsBatch := []
  rhsBatch := []
  wf := dot_S1000x512_S512x512_S1000x512_1_1_0_0_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1000x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x512 : Shape := ⟨2, ![100000, 512]⟩
abbrev S512x512 : Shape := ⟨2, ![512, 512]⟩
abbrev S1x100000x512 : Shape := ⟨3, ![1, 100000, 512]⟩
abbrev S2x100000x512 : Shape := ⟨3, ![2, 100000, 512]⟩

abbrev nBuf : Space → Nat
  | .hbm => 13
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S100000x512, .f32⟩
  | .hbm, ⟨2, _⟩ => ⟨S512x512, .f32⟩
  | .hbm, ⟨3, _⟩ => ⟨S512x512, .f32⟩
  | .hbm, ⟨4, _⟩ => ⟨S100000x512, .f32⟩
  | .hbm, ⟨5, _⟩ => ⟨S100000x512, .f32⟩
  | .hbm, ⟨6, _⟩ => ⟨S100000x512, .f32⟩
  | .hbm, ⟨7, _⟩ => ⟨S100000x512, .f32⟩
  | .hbm, ⟨8, _⟩ => ⟨S100000x512, .f32⟩
  | .hbm, ⟨9, _⟩ => ⟨S100000x512, .f32⟩
  | .hbm, ⟨10, _⟩ => ⟨S1x100000x512, .f32⟩
  | .hbm, ⟨11, _⟩ => ⟨S1x100000x512, .f32⟩
  | .hbm, ⟨12, _⟩ => ⟨S2x100000x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S100000x512_S1x100000x512_1_2 : S100000x512.BroadcastsInDim S1x100000x512 (![1, 2] : Fin 2 → Fin S1x100000x512.rank)
  concatenates_S1x100000x512_S1x100000x512_S2x100000x512_d0 : Shape.Concatenates [S1x100000x512, S1x100000x512] S2x100000x512 0
  dot_S100000x512_S512x512_S100000x512_1_1_0_0_n_n_wf : DotDims.WF S100000x512 S512x512 S100000x512 [1] [1] [0] [0] [] []

variable [Facts₀]

def dot_S100000x512_S512x512_S100000x512_1_1_0_0_n_n : DotDims S100000x512 S512x512 S100000x512 where
  lhsContracting := [1]
  rhsContracting := [1]
  lhsNonContracting := [0]
  rhsNonContracting := [0]
  lhsBatch := []
  rhsBatch := []
  wf := dot_S100000x512_S512x512_S100000x512_1_1_0_0_n_n_wf

class Facts : Prop extends Facts₀ where

variable [Facts]
-- ==== Proof.ComplexPlanes.lean ====
/-
  The complex linear map on its two real planes.

  For activations `x = x_re + i·x_im` (100000 rows of 512 input channels) and weights `W = W_re + i·W_im`
  (512 output channels by 512 input channels), the product `x · Wᵀ` has

      real plane       x_re · W_reᵀ − x_im · W_imᵀ
      imaginary plane  x_re · W_imᵀ + x_im · W_reᵀ

  where entry `(r, o)` of `a · wᵀ` is `Σ_k a[r,k] · w[o,k]` over the 512 input channels. The entries are extended reals;
  the sums are finite sums in the commutative monoid of extended reals, so their order never matters, and nothing here
  needs the entries to be finite: both programs form the same four sums and combine them with the same subtraction and
  the same addition.
-/
import Idealize.ShloMosaic.PureOps.Ideal
import Idealize.ShloMosaic.Lib.ValueIdx

noncomputable section

namespace Cert.ComplexLinear

open Idealize.ShloMosaic Idealize.ShloMosaic.ValueIdx

/-- The activations' shape, 100000 rows by 512 input channels; each result plane has the same shape, 100000 rows by 512
    output channels. -/
abbrev Rows : Shape := ⟨2, ![100000, 512]⟩
/-- A weight plane's shape: 512 output channels by 512 input channels. -/
abbrev Wts : Shape := ⟨2, ![512, 512]⟩

/-- Entry `(r, o)` of `a · wᵀ`: row `r` of `a` against row `o` of `w`, summed over the input channels. -/
def rowDot (a : Rows.Idx → EReal) (w : Wts.Idx → EReal) (r : Fin 100000) (o : Fin 512) : EReal :=
  ∑ k : Fin 512, a (ix2 r k) * w (ix2 o k)

/-- The real plane of `(x_re + i·x_im) · (W_re + i·W_im)ᵀ`. -/
def realPlane (xr xi : Rows.Idx → EReal) (wr wi : Wts.Idx → EReal) : Rows.Idx → EReal := fun i =>
  rowDot xr wr ⟨(i 0).val, (i 0).isLt⟩ ⟨(i 1).val, (i 1).isLt⟩ - rowDot xi wi ⟨(i 0).val, (i 0).isLt⟩ ⟨(i 1).val, (i 1).isLt⟩

/-- The imaginary plane of the same product. -/
def imagPlane (xr xi : Rows.Idx → EReal) (wr wi : Wts.Idx → EReal) : Rows.Idx → EReal := fun i =>
  rowDot xr wi ⟨(i 0).val, (i 0).isLt⟩ ⟨(i 1).val, (i 1).isLt⟩ + rowDot xi wr ⟨(i 0).val, (i 0).isLt⟩ ⟨(i 1).val, (i 1).isLt⟩

/-- An index of a rank-2 array is determined by the values of its two coordinates. -/
theorem eq_ix2_of_val {n0 n1 : Nat} (j : (⟨2, ![n0, n1]⟩ : Shape).Idx) (a : Fin n0) (b : Fin n1)
    (h0 : (j 0).val = a.val) (h1 : (j 1).val = b.val) : j = ix2 a b := by
  funext d
  apply Fin.ext
  match d with
  | ⟨0, _⟩ => exact h0
  | ⟨1, _⟩ => exact h1

/-- The real plane at the index whose row is `r` and whose output channel is `o`. -/
theorem realPlane_at (xr xi : Rows.Idx → EReal) (wr wi : Wts.Idx → EReal) (i : Rows.Idx) (r : Fin 100000) (o : Fin 512)
    (h0 : (i 0).val = r.val) (h1 : (i 1).val = o.val) :
    realPlane xr xi wr wi i = rowDot xr wr r o - rowDot xi wi r o := by
  have er : (⟨(i 0).val, (i 0).isLt⟩ : Fin 100000) = r := Fin.ext h0
  have eo : (⟨(i 1).val, (i 1).isLt⟩ : Fin 512) = o := Fin.ext h1
  unfold realPlane
  rw [er, eo]

/-- The imaginary plane at the index whose row is `r` and whose output channel is `o`. -/
theorem imagPlane_at (xr xi : Rows.Idx → EReal) (wr wi : Wts.Idx → EReal) (i : Rows.Idx) (r : Fin 100000) (o : Fin 512)
    (h0 : (i 0).val = r.val) (h1 : (i 1).val = o.val) :
    imagPlane xr xi wr wi i = rowDot xr wi r o + rowDot xi wr r o := by
  have er : (⟨(i 0).val, (i 0).isLt⟩ : Fin 100000) = r := Fin.ext h0
  have eo : (⟨(i 1).val, (i 1).isLt⟩ : Fin 512) = o := Fin.ext h1
  unfold imagPlane
  rw [er, eo]

end Cert.ComplexLinear

end
-- ==== Proof.BlockProduct.lean ====
/-
  What the kernel body computes from one grid point's blocks, read at an output index.

  The body loads a 1000-row block of `x_re` and of `x_im` and the two whole weight planes, narrows all four (a change
  of float format, the identity on extended reals), forms four products `a · wᵀ` on the matrix unit, each into a zero
  accumulator, and stores `x_re·W_reᵀ − x_im·W_imᵀ` and `x_re·W_imᵀ + x_im·W_reᵀ`. A product into a zero accumulator is
  the bare sum over the contracted axis (`0 + s = s`), and the one contracted axis is re-indexed by its coordinate:
  entry `(p, q)` of the block product is `Σ_k a[p,k] · w[q,k]`.
-/
import proofs.«174685_j6390911336489_1_alg».proof.Proof.Gen.KernelIdeal.Skeleton
import Idealize.ShloMosaic.PureOps.Ideal.Laws
import Idealize.ShloMosaic.Lib.ValueIdx

noncomputable section

namespace Cert.KernelIdeal.BlockProduct

open Cert.KernelIdeal Cert.KernelIdeal.Gen Idealize.ShloMosaic Idealize.ShloMosaic.ValueIdx

/-- The left operand's index for output `(p, q)` keeps the output's row. -/
theorem lhs_row (i : S1000x512.Idx) (z : dot_S1000x512_S512x512_S1000x512_1_1_0_0_n_n.contr.Idx) :
    (dot_S1000x512_S512x512_S1000x512_1_1_0_0_n_n.lhsIdx i z 0).val = (i 0).val := by
  unfold DotDims.lhsIdx
  rw [dif_neg (show ¬(0 : Fin S1000x512.rank) ∈ dot_S1000x512_S512x512_S1000x512_1_1_0_0_n_n.lhsBatch by decide),
    dif_pos (show (0 : Fin S1000x512.rank) ∈ dot_S1000x512_S512x512_S1000x512_1_1_0_0_n_n.lhsNonContracting by decide)]
  rfl

/-- Its column is the contracted coordinate. -/
theorem lhs_col (i : S1000x512.Idx) (z : dot_S1000x512_S512x512_S1000x512_1_1_0_0_n_n.contr.Idx) :
    (dot_S1000x512_S512x512_S1000x512_1_1_0_0_n_n.lhsIdx i z 1).val = (z ⟨0, by decide⟩).val :=
  dot_S1000x512_S512x512_S1000x512_1_1_0_0_n_n.lhsIdx_val_of_single rfl i z

/-- The right operand's row is the output's column (the weights enter transposed). -/
theorem rhs_row (i : S1000x512.Idx) (z : dot_S1000x512_S512x512_S1000x512_1_1_0_0_n_n.contr.Idx) :
    (dot_S1000x512_S512x512_S1000x512_1_1_0_0_n_n.rhsIdx i z 0).val = (i 1).val := by
  unfold DotDims.rhsIdx
  rw [dif_neg (show ¬(0 : Fin S512x512.rank) ∈ dot_S1000x512_S512x512_S1000x512_1_1_0_0_n_n.rhsBatch by decide),
    dif_pos (show (0 : Fin S512x512.rank) ∈ dot_S1000x512_S512x512_S1000x512_1_1_0_0_n_n.rhsNonContracting by decide)]
  rfl

/-- Its column is the contracted coordinate. -/
theorem rhs_col (i : S1000x512.Idx) (z : dot_S1000x512_S512x512_S1000x512_1_1_0_0_n_n.contr.Idx) :
    (dot_S1000x512_S512x512_S1000x512_1_1_0_0_n_n.rhsIdx i z 1).val = (z ⟨0, by decide⟩).val :=
  dot_S1000x512_S512x512_S1000x512_1_1_0_0_n_n.rhsIdx_val_of_single rfl i z

/-- A block product into the zero accumulator, at output `(p, q)`: `Σ_k a[p,k] · w[q,k]`. -/
theorem blockDot_apply (a : FVec Ideal S1000x512 .bf16) (w : FVec Ideal S512x512 .bf16) (p : Fin 1000) (q : Fin 512) :
    matmul dot_S1000x512_S512x512_S1000x512_1_1_0_0_n_n none a w (constant (F := Ideal) S1000x512 .f32 0x00000000#32) (ix2 p q)
      = ∑ k : Fin 512, a (ix2 p k) * w (ix2 q k) := by
  simp only [matmul]
  rw [Ideal.matmul_constant_zero_apply,
    ← Equiv.sum_comp (contrEquiv1 dot_S1000x512_S512x512_S1000x512_1_1_0_0_n_n 512 rfl rfl).symm]
  refine Finset.sum_congr rfl fun k _ => ?_
  have hk := contrEquiv1_symm_val dot_S1000x512_S512x512_S1000x512_1_1_0_0_n_n 512 rfl rfl k
  have el : dot_S1000x512_S512x512_S1000x512_1_1_0_0_n_n.lhsIdx (ix2 p q)
      ((contrEquiv1 dot_S1000x512_S512x512_S1000x512_1_1_0_0_n_n 512 rfl rfl).symm k) = ix2 p k :=
    funext fun d => Fin.ext (by
      match d with
      | ⟨0, _⟩ => exact lhs_row _ _
      | ⟨1, _⟩ => exact (lhs_col _ _).trans hk)
  have er : dot_S1000x512_S512x512_S1000x512_1_1_0_0_n_n.rhsIdx (ix2 p q)
      ((contrEquiv1 dot_S1000x512_S512x512_S1000x512_1_1_0_0_n_n 512 rfl rfl).symm k) = ix2 q k :=
    funext fun d => Fin.ext (by
      match d with
      | ⟨0, _⟩ => exact rhs_row _ _
      | ⟨1, _⟩ => exact (rhs_col _ _).trans hk)
  rw [el, er]

/-- What the body stores to the real plane's block, at `(p, q)`. -/
theorem realStore_apply (xr xi : Vec Ideal S1000x512 .f32) (wr wi : Vec Ideal S512x512 .f32) (p : Fin 1000) (q : Fin 512) :
    k0_pay5 xr xi wr wi (ix2 p q)
      = (∑ k : Fin 512, xr (ix2 p k) * wr (ix2 q k)) - ∑ k : Fin 512, xi (ix2 p k) * wi (ix2 q k) := by
  unfold k0_pay5 k0_pay1 k0_pay2 k0_pay3 k0_pay4
  refine (subf_apply _ _ (ix2 p q)).trans ?_
  refine (congrArg₂ (· - ·) (blockDot_apply _ _ p q) (blockDot_apply _ _ p q)).trans ?_
  rfl

/-- What the body stores to the imaginary plane's block, at `(p, q)`. -/
theorem imagStore_apply (xr xi : Vec Ideal S1000x512 .f32) (wr wi : Vec Ideal S512x512 .f32) (p : Fin 1000) (q : Fin 512) :
    k0_pay6 xr xi wr wi (ix2 p q)
      = (∑ k : Fin 512, xr (ix2 p k) * wi (ix2 q k)) + ∑ k : Fin 512, xi (ix2 p k) * wr (ix2 q k) := by
  unfold k0_pay6 k0_pay1 k0_pay2 k0_pay3 k0_pay4
  refine (addf_apply _ _ (ix2 p q)).trans ?_
  refine (congrArg₂ (· + ·) (blockDot_apply _ _ p q) (blockDot_apply _ _ p q)).trans ?_
  rfl

end Cert.KernelIdeal.BlockProduct

end
-- ==== Proof.BlocksToPlanes.lean ====
/-
  From one grid point's blocks to the whole output arrays.

  The grid has 100 points. At point `t` the two activation windows and the two output windows sit on rows
  `1000·t … 1000·t + 999` (block index `(t, 0)`, blocks of 1000 rows by 512), and the two weight windows on the whole
  weight planes (block index `(0, 0)`). So entry `(p, k)` of an activation block is entry `(1000·t + p, k)` of its array,
  a weight block is its array, and what the body stores at `(p, q)` — `Σ_k` over the blocks — is the complex product's
  plane at `(1000·t + p, q)`: what point `t` writes back is block `t` of the plane. Row `r` lies in the block of point
  `r / 1000`, so the 100 written blocks cover each output array, and each array ends holding its plane.
-/
import proofs.«174685_j6390911336489_1_alg».proof.Proof.Gen.KernelIdeal.Frame
import proofs.«174685_j6390911336489_1_alg».proof.Proof.ComplexPlanes
import proofs.«174685_j6390911336489_1_alg».proof.Proof.BlockProduct
import Idealize.ShloMosaic.Lib.Pipeline.Value

noncomputable section

namespace Cert.KernelIdeal.Planes

open Cert.KernelIdeal Cert.KernelIdeal.Gen Cert.KernelIdeal.BlockProduct Cert.ComplexLinear
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps, decided once over the 100 points: the activation and output windows are on block row `t`,
    the weight windows on their one block. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ t.val < 100 :=
  (by decide +kernel : ∀ t : Fin grid0.N, _)

/-! ## The input blocks as entries of the argument arrays -/

/-- Entry `(p, k)` of the block of `x_re` at point `t` is entry `(1000·t + p, k)` of `x_re`. -/
theorem xre_block (c : Dev nD) (t : Fin cfg0.N) (p : Fin 1000) (k : Fin 512) (r : Fin 100000) (hr : r.val = t.val * 1000 + p.val) :
    (iblk m c 0 t : Vec Ideal S1000x512 .f32) (ix2 p k) = (V m c main_arg0 : S100000x512.Idx → EReal) (ix2 r k) := by
  obtain ⟨e0, e1, -⟩ := block_index t
  unfold iblk
  rw [View.read_apply]
  show V m c main_arg0 _ = V m c main_arg0 _
  refine congrArg _ (funext fun a => Fin.ext ?_)
  match a with
  | ⟨0, _⟩ => show win0_0.index t (0 : Fin 2) * 1000 + 1 * p.val = r.val; omega
  | ⟨1, _⟩ => show win0_0.index t (1 : Fin 2) * 512 + 1 * k.val = k.val; omega

/-- The same for `x_im`. -/
theorem xim_block (c : Dev nD) (t : Fin cfg0.N) (p : Fin 1000) (k : Fin 512) (r : Fin 100000) (hr : r.val = t.val * 1000 + p.val) :
    (iblk m c 1 t : Vec Ideal S1000x512 .f32) (ix2 p k) = (V m c main_arg1 : S100000x512.Idx → EReal) (ix2 r k) := by
  obtain ⟨-, -, e0, e1, -⟩ := block_index t
  unfold iblk
  rw [View.read_apply]
  show V m c main_arg1 _ = V m c main_arg1 _
  refine congrArg _ (funext fun a => Fin.ext ?_)
  match a with
  | ⟨0, _⟩ => show win0_1.index t (0 : Fin 2) * 1000 + 1 * p.val = r.val; omega
  | ⟨1, _⟩ => show win0_1.index t (1 : Fin 2) * 512 + 1 * k.val = k.val; omega

/-- The block of `W_re` at any point is `W_re`. -/
theorem wre_block (c : Dev nD) (t : Fin cfg0.N) (q : Fin 512) (k : Fin 512) :
    (iblk m c 2 t : Vec Ideal S512x512 .f32) (ix2 q k) = (V m c main_arg2 : S512x512.Idx → EReal) (ix2 q k) := by
  obtain ⟨-, -, -, -, e0, e1, -⟩ := block_index t
  unfold iblk
  rw [View.read_apply]
  show V m c main_arg2 _ = V m c main_arg2 _
  refine congrArg _ (funext fun a => Fin.ext ?_)
  match a with
  | ⟨0, _⟩ => show win0_2.index t (0 : Fin 2) * 512 + 1 * q.val = q.val; omega
  | ⟨1, _⟩ => show win0_2.index t (1 : Fin 2) * 512 + 1 * k.val = k.val; omega

/-- The block of `W_im` at any point is `W_im`. -/
theorem wim_block (c : Dev nD) (t : Fin cfg0.N) (q : Fin 512) (k : Fin 512) :
    (iblk m c 3 t : Vec Ideal S512x512 .f32) (ix2 q k) = (V m c main_arg3 : S512x512.Idx → EReal) (ix2 q k) := by
  obtain ⟨-, -, -, -, -, -, e0, e1, -⟩ := block_index t
  unfold iblk
  rw [View.read_apply]
  show V m c main_arg3 _ = V m c main_arg3 _
  refine congrArg _ (funext fun a => Fin.ext ?_)
  match a with
  | ⟨0, _⟩ => show win0_3.index t (0 : Fin 2) * 512 + 1 * q.val = q.val; omega
  | ⟨1, _⟩ => show win0_3.index t (1 : Fin 2) * 512 + 1 * k.val = k.val; omega

/-- An entry of `a · wᵀ` formed from blocks whose row `p` is row `r` of the array `A` and whose weight block is the array `Wt`
    is the entry of the arrays' product on row `r`. -/
theorem blockDot_eq_rowDot (p : Fin 1000) (q : Fin 512) (r : Fin 100000)
    (a : Vec Ideal S1000x512 .f32) (w : Vec Ideal S512x512 .f32) (A : S100000x512.Idx → EReal) (Wt : S512x512.Idx → EReal)
    (ha : ∀ k : Fin 512, a (ix2 p k) = A (ix2 r k)) (hw : ∀ k : Fin 512, w (ix2 q k) = Wt (ix2 q k)) :
    (∑ k : Fin 512, a (ix2 p k) * w (ix2 q k)) = rowDot A Wt r q := by
  unfold rowDot
  exact Finset.sum_congr rfl fun k _ => by rw [ha k, hw k]

/-! ## What a point writes back -/

/-- Point `t` writes back, to the first output, block `t` of the real plane of the arguments. -/
theorem flushed_real (c : Dev nD) (t : Fin cfg0.N) :
    (dats m 0 c).flushed 4 t = ((cfg0.win 4).blk t).view.read (Elt Ideal)
      (realPlane (V m c main_arg0) (V m c main_arg1) (V m c main_arg2) (V m c main_arg3)) := by
  show (cfg0.win 4).cut (grid0.coords t) ((dats m 0 c).after 4 t) = _
  rw [after0_4]
  unfold out0_4
  rw [View.canon_unit_zero zero_offsets]
  simp only [View.ld_unit_zero (S := S1000x512) zero_offsets, View.ld_unit_zero (S := S512x512) zero_offsets]
  obtain ⟨-, -, -, -, -, -, -, -, e0, e1, -, -, ht⟩ := block_index t
  funext j
  obtain ⟨p, q, rfl⟩ : ∃ (p : Fin 1000) (q : Fin 512), j = ix2 p q := ⟨j 0, j 1, eq_ix2 j⟩
  show k0_pay5 (iblk m c 0 t) (iblk m c 1 t) (iblk m c 2 t) (iblk m c 3 t) (ix2 p q)
    = realPlane (V m c main_arg0) (V m c main_arg1) (V m c main_arg2) (V m c main_arg3) (((cfg0.win 4).blk t).view.emb (ix2 p q))
  have hlt : t.val * 1000 + p.val < 100000 := by have := p.isLt; omega
  refine (realStore_apply _ _ _ _ p q).trans ?_
  refine Eq.trans ?_ (realPlane_at _ _ _ _ _ ⟨t.val * 1000 + p.val, hlt⟩ q ?_ ?_).symm
  · exact congrArg₂ (· - ·)
      (blockDot_eq_rowDot p q _ _ _ _ _ (fun k => xre_block m c t p k _ rfl) (fun k => wre_block m c t q k))
      (blockDot_eq_rowDot p q _ _ _ _ _ (fun k => xim_block m c t p k _ rfl) (fun k => wim_block m c t q k))
  · show win0_4.index t (0 : Fin 2) * 1000 + 1 * p.val = t.val * 1000 + p.val; omega
  · show win0_4.index t (1 : Fin 2) * 512 + 1 * q.val = q.val; omega

/-- Point `t` writes back, to the second output, block `t` of the imaginary plane of the arguments. -/
theorem flushed_imag (c : Dev nD) (t : Fin cfg0.N) :
    (dats m 0 c).flushed 5 t = ((cfg0.win 5).blk t).view.read (Elt Ideal)
      (imagPlane (V m c main_arg0) (V m c main_arg1) (V m c main_arg2) (V m c main_arg3)) := by
  show (cfg0.win 5).cut (grid0.coords t) ((dats m 0 c).after 5 t) = _
  rw [after0_5]
  unfold out0_5
  rw [View.canon_unit_zero zero_offsets]
  simp only [View.ld_unit_zero (S := S1000x512) zero_offsets, View.ld_unit_zero (S := S512x512) zero_offsets]
  obtain ⟨-, -, -, -, -, -, -, -, -, -, e0, e1, ht⟩ := block_index t
  funext j
  obtain ⟨p, q, rfl⟩ : ∃ (p : Fin 1000) (q : Fin 512), j = ix2 p q := ⟨j 0, j 1, eq_ix2 j⟩
  show k0_pay6 (iblk m c 0 t) (iblk m c 1 t) (iblk m c 2 t) (iblk m c 3 t) (ix2 p q)
    = imagPlane (V m c main_arg0) (V m c main_arg1) (V m c main_arg2) (V m c main_arg3) (((cfg0.win 5).blk t).view.emb (ix2 p q))
  have hlt : t.val * 1000 + p.val < 100000 := by have := p.isLt; omega
  refine (imagStore_apply _ _ _ _ p q).trans ?_
  refine Eq.trans ?_ (imagPlane_at _ _ _ _ _ ⟨t.val * 1000 + p.val, hlt⟩ q ?_ ?_).symm
  · exact congrArg₂ (· + ·)
      (blockDot_eq_rowDot p q _ _ _ _ _ (fun k => xre_block m c t p k _ rfl) (fun k => wim_block m c t q k))
      (blockDot_eq_rowDot p q _ _ _ _ _ (fun k => xim_block m c t p k _ rfl) (fun k => wre_block m c t q k))
  · show win0_5.index t (0 : Fin 2) * 1000 + 1 * p.val = t.val * 1000 + p.val; omega
  · show win0_5.index t (1 : Fin 2) * 512 + 1 * q.val = q.val; omega

/-! ## The written blocks cover the arrays -/

/-- An index is in the first output's block at point `t` iff each coordinate is in the block's range on its axis. -/
theorem mem_block_real (t : Fin cfg0.N) (i : S100000x512.Idx) :
    i ∈ ((cfg0.win 4).blk t).view.set ↔ ∀ a : Fin 2, win0_4.index t a * S1000x512.size a ≤ (i a).val
      ∧ (i a).val < win0_4.index t a * S1000x512.size a + S1000x512.size a := by
  show i ∈ ((View.whole main_v0_0).slice (win0_4.rect t)).set ↔ _
  rw [View.set_slice_whole, Rect.mem_set_unit]
  exact Iff.rfl

/-- The same for the second output. -/
theorem mem_block_imag (t : Fin cfg0.N) (i : S100000x512.Idx) :
    i ∈ ((cfg0.win 5).blk t).view.set ↔ ∀ a : Fin 2, win0_5.index t a * S1000x512.size a ≤ (i a).val
      ∧ (i a).val < win0_5.index t a * S1000x512.size a + S1000x512.size a := by
  show i ∈ ((View.whole main_v0_1).slice (win0_5.rect t)).set ↔ _
  rw [View.set_slice_whole, Rect.mem_set_unit]
  exact Iff.rfl

/-- Row `r` of the first output is written by point `r / 1000`. -/
theorem cover_real (i : S100000x512.Idx) :
    ∃ t : Fin cfg0.N, (cfg0.win 4).flush t = true ∧ i ∈ ((cfg0.win 4).blk t).view.set := by
  have hi0 : (i 0).val < 100000 := idx2_lt0 i
  have hi1 : (i 1).val < 512 := idx2_lt1 i
  have hN : cfg0.N = 100 := N_0
  have hb : (i 0).val / 1000 < cfg0.N := by rw [hN]; omega
  obtain ⟨-, -, -, -, -, -, -, -, e0, e1, -⟩ := block_index ⟨(i 0).val / 1000, hb⟩
  refine ⟨⟨(i 0).val / 1000, hb⟩, flush0_4 _, ?_⟩
  rw [mem_block_real]
  intro a
  match a with
  | ⟨0, _⟩ =>
    show win0_4.index ⟨(i 0).val / 1000, hb⟩ (0 : Fin 2) * 1000 ≤ (i 0).val
      ∧ (i 0).val < win0_4.index ⟨(i 0).val / 1000, hb⟩ (0 : Fin 2) * 1000 + 1000
    rw [e0]; show (i 0).val / 1000 * 1000 ≤ (i 0).val ∧ (i 0).val < (i 0).val / 1000 * 1000 + 1000; omega
  | ⟨1, _⟩ =>
    show win0_4.index ⟨(i 0).val / 1000, hb⟩ (1 : Fin 2) * 512 ≤ (i 1).val
      ∧ (i 1).val < win0_4.index ⟨(i 0).val / 1000, hb⟩ (1 : Fin 2) * 512 + 512
    rw [e1]; omega

/-- Row `r` of the second output is written by point `r / 1000`. -/
theorem cover_imag (i : S100000x512.Idx) :
    ∃ t : Fin cfg0.N, (cfg0.win 5).flush t = true ∧ i ∈ ((cfg0.win 5).blk t).view.set := by
  have hi0 : (i 0).val < 100000 := idx2_lt0 i
  have hi1 : (i 1).val < 512 := idx2_lt1 i
  have hN : cfg0.N = 100 := N_0
  have hb : (i 0).val / 1000 < cfg0.N := by rw [hN]; omega
  obtain ⟨-, -, -, -, -, -, -, -, -, -, e0, e1, -⟩ := block_index ⟨(i 0).val / 1000, hb⟩
  refine ⟨⟨(i 0).val / 1000, hb⟩, flush0_5 _, ?_⟩
  rw [mem_block_imag]
  intro a
  match a with
  | ⟨0, _⟩ =>
    show win0_5.index ⟨(i 0).val / 1000, hb⟩ (0 : Fin 2) * 1000 ≤ (i 0).val
      ∧ (i 0).val < win0_5.index ⟨(i 0).val / 1000, hb⟩ (0 : Fin 2) * 1000 + 1000
    rw [e0]; show (i 0).val / 1000 * 1000 ≤ (i 0).val ∧ (i 0).val < (i 0).val / 1000 * 1000 + 1000; omega
  | ⟨1, _⟩ =>
    show win0_5.index ⟨(i 0).val / 1000, hb⟩ (1 : Fin 2) * 512 ≤ (i 1).val
      ∧ (i 1).val < win0_5.index ⟨(i 0).val / 1000, hb⟩ (1 : Fin 2) * 512 + 512
    rw [e1]; omega

/-! ## The output arrays after the run -/

/-- The first output array ends holding the real plane of the arguments as launched. -/
theorem final_real (c : Dev nD) :
    (dats m 0 c).arrAt 4 cfg0.N = realPlane (m ((c : Thread nD τ).loc main_arg0)) (m ((c : Thread nD τ).loc main_arg1))
      (m ((c : Thread nD τ).loc main_arg2)) (m ((c : Thread nD τ).loc main_arg3)) :=
  (dats m 0 c).arrAt_eq_of_cover 4 (realPlane (V m c main_arg0) (V m c main_arg1) (V m c main_arg2) (V m c main_arg3))
    (fun t _ => flushed_real m c t) cover_real

/-- The second output array ends holding the imaginary plane of the arguments as launched. -/
theorem final_imag (c : Dev nD) :
    (dats m 0 c).arrAt 5 cfg0.N = imagPlane (m ((c : Thread nD τ).loc main_arg0)) (m ((c : Thread nD τ).loc main_arg1))
      (m ((c : Thread nD τ).loc main_arg2)) (m ((c : Thread nD τ).loc main_arg3)) :=
  (dats m 0 c).arrAt_eq_of_cover 5 (imagPlane (V m c main_arg0) (V m c main_arg1) (V m c main_arg2) (V m c main_arg3))
    (fun t _ => flushed_imag m c t) cover_imag

end Cert.KernelIdeal.Planes

end
-- ==== Proof.StackedPlanes.lean ====
/-
  The kernel program's result: the two planes stacked.

  After the grid has run, the program gives each output array a leading axis of extent one and joins the two along it:
  the result, of shape 2 by 100000 by 512, has the real plane at leading index 0 and the imaginary plane at leading
  index 1. The reference ends with the same two steps applied to its own two planes, so the stacking is carried here as
  ONE function `stack` of the two planes and is never opened: the two programs agree as soon as the planes they stack do.
-/
import proofs.«174685_j6390911336489_1_alg».proof.Proof.Gen.KernelIdeal.Frame
import proofs.«174685_j6390911336489_1_alg».proof.Proof.BlocksToPlanes
import Idealize.ShloMosaic.Lib.Pipeline.Value
import Idealize.ShloMosaic.Lib.StableHlo.Run
import Idealize.ShloMosaic.PureOps.Ideal

noncomputable section

namespace Cert.KernelIdeal.Planes

open Cert.KernelIdeal Cert.KernelIdeal.Gen Cert.ComplexLinear
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- Two planes stacked along a new leading axis: each is given a leading axis of extent one, and the two are joined along it. -/
def stack (a b : (⟨S100000x512, .f32⟩ : BufTy).Contents (Elt Ideal)) : (⟨S2x100000x512, .f32⟩ : BufTy).Contents (Elt Ideal) :=
  concatenate S2x100000x512 0
    [⟨S1x100000x512, broadcastInDim S1x100000x512 ![1, 2] bcast_S100000x512_S1x100000x512_1_2 a⟩,
     ⟨S1x100000x512, broadcastInDim S1x100000x512 ![1, 2] bcast_S100000x512_S1x100000x512_1_2 b⟩]
    concatenates_S1x100000x512_S1x100000x512_S2x100000x512_d0

/-- The program's result buffer, after the lines that follow the grid, is the stack of the two output arrays as the grid left them. -/
theorem result_eq_stack (c : Dev nD) :
    Pipeline.afterTail₀ cfgs (dats m) 0 (V0 m) [hostOps1] c main_v3
      = stack ((dats m 0 c).arrAt 4 cfg0.N) ((dats m 0 c).arrAt 5 cfg0.N) := by
  have h4 : Pipeline.withArrays (cfgs 0).spec c (V0 m c) (fun w => (dats m 0 c).arrAt w (cfgs 0).N) (Proc.devRef .tc main_v0_0)
      = (dats m 0 c).arrAt 4 cfg0.N := Pipeline.withArrays_arr spec0 launch0.win.arr_inj c _ _ 4
  have h5 : Pipeline.withArrays (cfgs 0).spec c (V0 m c) (fun w => (dats m 0 c).arrAt w (cfgs 0).N) (Proc.devRef .tc main_v0_1)
      = (dats m 0 c).arrAt 5 cfg0.N := Pipeline.withArrays_arr spec0 launch0.win.arr_inj c _ _ 5
  unfold Pipeline.afterTail₀
  show StableHlo.after hostOps1 _ (Proc.devRef .tc main_v3) = _
  after_results
  rw [h4, h5]
  rfl

/-- The result buffer is neither scoped nor one of the grid's arrays, so the run's post speaks of it. -/
theorem result_mem : main_v3 ∈ Pipeline.restRefs sig (cfgs 0).spec :=
  Pipeline.mem_restRefs_of main_v3 rfl (by decide)

/-- Every weakly fair execution of the kernel program terminates with its result at the stack of the real and imaginary
    planes of the arguments, and the arguments unchanged. -/
theorem run : θ_run defs (onTc (τ := τ) (main (F := Ideal))) ⟨m, fun _ => 0, ρ⟩ fun r => ∀ c : Dev nD,
      r.2.mem ((c.tc : Thread nD τ).loc main_v3)
        = stack (realPlane (m ((c.tc : Thread nD τ).loc main_arg0)) (m ((c.tc : Thread nD τ).loc main_arg1))
                  (m ((c.tc : Thread nD τ).loc main_arg2)) (m ((c.tc : Thread nD τ).loc main_arg3)))
                (imagPlane (m ((c.tc : Thread nD τ).loc main_arg0)) (m ((c.tc : Thread nD τ).loc main_arg1))
                  (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 result_mem).trans ((result_eq_stack m c).trans (by rw [final_real, final_imag])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Planes

end
-- ==== Proof.ReferencePlanes.lean ====
/-
  The reference's two planes are the complex product's planes.

  The reference forms the four products `a · wᵀ` as host contractions over the input-channel axis and subtracts or adds
  them whole. At an index `i` with row `i 0` and output channel `i 1`, each contraction is `Σ_k a[i 0, k] · w[i 1, k]`,
  which is the specification's `rowDot` term for term; the difference and the sum of two arrays are taken entry by entry.
-/
import proofs.«174685_j6390911336489_1_alg».proof.Proof.Gen.ReferenceIdeal.Read
import proofs.«174685_j6390911336489_1_alg».proof.Proof.ComplexPlanes

noncomputable section

namespace Cert.ReferenceIdeal.Planes

open Cert.ReferenceIdeal Cert.ReferenceIdeal.Read Cert.ComplexLinear Idealize.ShloMosaic Idealize.ShloMosaic.ValueIdx

/-- A host contraction `a · wᵀ` over the input channels, at an index, is the specification's entry. -/
theorem contraction_eq (a : Rows.Idx → EReal) (w : Wts.Idx → EReal) (i : Rows.Idx)
    (li : Fin 512 → Rows.Idx) (ri : Fin 512 → Wts.Idx)
    (hl0 : ∀ k, ((li k) 0).val = (i 0).val) (hl1 : ∀ k, ((li k) 1).val = k.val)
    (hr0 : ∀ k, ((ri k) 0).val = (i 1).val) (hr1 : ∀ k, ((ri k) 1).val = k.val) :
    (∑ k : Fin 512, a (li k) * w (ri k)) = rowDot a w ⟨(i 0).val, (i 0).isLt⟩ ⟨(i 1).val, (i 1).isLt⟩ := by
  unfold rowDot
  refine Finset.sum_congr rfl fun k _ => ?_
  rw [eq_ix2_of_val (li k) ⟨(i 0).val, (i 0).isLt⟩ k (hl0 k) (hl1 k),
    eq_ix2_of_val (ri k) ⟨(i 1).val, (i 1).isLt⟩ k (hr0 k) (hr1 k)]

/-- The reference's difference of products is the real plane. -/
theorem real_eq (x0 x1 : Rows.Idx → EReal) (x2 x3 : Wts.Idx → EReal) :
    val_main_v2 (F := Ideal) x0 x1 x2 x3 = realPlane x0 x1 x2 x3 := by
  funext i
  rw [val_main_v2_apply, val_main_v0_apply, val_main_v1_apply]
  rw [contraction_eq x0 x2 i (lidx_main_v0 i) (ridx_main_v0 i) (fun _ => rfl) (fun _ => rfl) (fun _ => rfl) (fun _ => rfl),
    contraction_eq x1 x3 i (lidx_main_v1 i) (ridx_main_v1 i) (fun _ => rfl) (fun _ => rfl) (fun _ => rfl) (fun _ => rfl)]
  rfl

/-- The reference's sum of products is the imaginary plane. -/
theorem imag_eq (x0 x1 : Rows.Idx → EReal) (x2 x3 : Wts.Idx → EReal) :
    val_main_v5 (F := Ideal) x0 x1 x2 x3 = imagPlane x0 x1 x2 x3 := by
  funext i
  rw [val_main_v5_apply, val_main_v3_apply, val_main_v4_apply]
  rw [contraction_eq x0 x3 i (lidx_main_v3 i) (ridx_main_v3 i) (fun _ => rfl) (fun _ => rfl) (fun _ => rfl) (fun _ => rfl),
    contraction_eq x1 x2 i (lidx_main_v4 i) (ridx_main_v4 i) (fun _ => rfl) (fun _ => rfl) (fun _ => rfl) (fun _ => rfl)]
  rfl

end Cert.ReferenceIdeal.Planes

end
-- ==== Proof.lean ====
/-
  A complex linear layer against its reference, over the extended reals.

  Both programs compute `(x_re + i·x_im) · (W_re + i·W_im)ᵀ` for 100000 rows of 512 input channels and 512 output
  channels, and return the real plane `x_re·W_reᵀ − x_im·W_imᵀ` and the imaginary plane `x_re·W_imᵀ + x_im·W_reᵀ`
  stacked along a new leading axis. The kernel walks the rows in 100 blocks of 1000, holds both weight planes whole,
  narrows its operands before each product (the identity on extended reals) and accumulates each product from zero;
  the reference contracts the whole arrays at once. Entry `(r, o)` of every product is the same finite sum
  `Σ_k a[r,k] · w[o,k]` on both sides, the two programs combine the same products with the same subtraction and the same
  addition, and they stack the planes by the same two steps. No law that could fail at an infinite entry is used
  (only `0 + s = s` for the zero accumulator), so the precondition is never opened.

  The parts: ComplexPlanes (the two planes as functions of the four arrays), BlockProduct (the body's stores at an index),
  BlocksToPlanes (what a grid point writes back, the cover, the output arrays after the run), StackedPlanes (the stacking,
  and the kernel program's run with its result named), ReferencePlanes (the reference's planes are the same functions).
-/
import proofs.«174685_j6390911336489_1_alg».proof.Defs
import proofs.«174685_j6390911336489_1_alg».proof.Proof.Gen.Kernel
import proofs.«174685_j6390911336489_1_alg».proof.Proof.Gen.Kernel.Skeleton
import proofs.«174685_j6390911336489_1_alg».proof.Proof.Gen.Kernel.Launch
import proofs.«174685_j6390911336489_1_alg».proof.Proof.Gen.Kernel.Points
import proofs.«174685_j6390911336489_1_alg».proof.Proof.Gen.Kernel.Frame
import proofs.«174685_j6390911336489_1_alg».proof.Proof.Gen.KernelIdeal
import proofs.«174685_j6390911336489_1_alg».proof.Proof.Gen.KernelIdeal.Skeleton
import proofs.«174685_j6390911336489_1_alg».proof.Proof.Gen.KernelIdeal.Launch
import proofs.«174685_j6390911336489_1_alg».proof.Proof.Gen.KernelIdeal.Points
import proofs.«174685_j6390911336489_1_alg».proof.Proof.Gen.KernelIdeal.Frame
import proofs.«174685_j6390911336489_1_alg».proof.Proof.Gen.ReferenceIdeal
import proofs.«174685_j6390911336489_1_alg».proof.Proof.Gen.Pre_finite_inputs
import proofs.«174685_j6390911336489_1_alg».proof.Proof.Gen.ReferenceIdeal.Run
import proofs.«174685_j6390911336489_1_alg».proof.Proof.Gen.ReferenceIdeal.Read
import proofs.«174685_j6390911336489_1_alg».proof.Proof.StackedPlanes
import proofs.«174685_j6390911336489_1_alg».proof.Proof.ReferencePlanes
import Idealize.ShloMosaic.Adequacy
import Idealize.ShloMosaic.Init

noncomputable section

namespace Cert.Proof

open Idealize.ShloMosaic Idealize.SL.Sem Cert.ComplexLinear

/-- The reference's result is the stack of the real and imaginary planes of its arguments: its two planes are the
    specification's, and it stacks them by the kernel program's own two steps. -/
theorem reference_eq_stack (x0 x1 : Rows.Idx → EReal) (x2 x3 : Wts.Idx → EReal) :
    Cert.ReferenceIdeal.Read.val_main_v8 (F := Ideal) x0 x1 x2 x3
      = Cert.KernelIdeal.Planes.stack (realPlane x0 x1 x2 x3) (imagPlane x0 x1 x2 x3) := by
  rw [← Cert.ReferenceIdeal.Planes.real_eq, ← Cert.ReferenceIdeal.Planes.imag_eq]
  rfl

/-- The word-level kernel program runs and leaves its arguments unchanged. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the four arguments, both programs end with the stack of the real and imaginary planes of
    those arguments. -/
theorem algebraic : Cert.algebraic_KernelIdeal_ReferenceIdeal := by
  intro m ρ m' ρ' _ hagree
  refine ⟨_, Cert.KernelIdeal.Planes.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2.1, (hagree c).2.2.1, (hagree c).2.2.2]
  exact reference_eq_stack _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
